-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S800000 32) (main_arg1 : IVec S800000 32) (main_arg2 : FVec F S50000x128 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 62
  | .vmem => 24
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S50000x1, .f32⟩
  | .hbm, ⟨44, _⟩ => ⟨S1x128, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S50000x1, .f32⟩
  | .hbm, ⟨60, _⟩ => ⟨S1x64, .f32⟩
  | .hbm, ⟨61, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The device program's run, read to its end.

  The program is a chain of ten segments: five stretches of host operations, the first dense stage, a stretch, the
  second dense stage, a stretch, the last stage.  Each segment takes the buffer contents at its start to the contents at
  its end, and the generated frame names those contents boundary by boundary (`W0` at launch … `W10` at the return).
  Running the chain from any launch memory therefore ends, on every weakly fair execution, with every buffer at `W10`:
  in particular the result buffer, and each argument (which no segment writes) at its launch contents.
-/
import proofs.«154052_j72232759984610_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault, the result buffer at the last boundary's contents
    and every argument as launched. -/
theorem run : θ_run defs (onTc (τ := τ) (main (F := F))) ⟨m, fun _ => 0, ρ⟩ (fun r => ∀ c : Dev nD,
      r.2.mem ((c.tc : Thread nD τ).loc main_v39) = W10 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v39 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Whole

end
-- ==== Proof.Spec.lean ====
/-
  The three dense stages of a two-layer graph convolution with symmetric degree normalisation, index by index over the
  extended reals.

  Write `s_out r` and `s_in r` for the two per-node scales (the reciprocal square roots of the clipped out- and
  in-degrees).  Between the dense stages the network gathers rows by source node and adds them up by destination node;
  those two steps are the same in both programs and are not described here.  What is described is what happens to one
  row of the node features:

  * `lin X s W`   — row `r` of `X`, every entry scaled by `s r`, times the weight matrix `W`:
                     entry `(r, q)` is `∑ k, (X (r, k) * s r) * W (k, q)`;
  * `act A s b`   — the aggregated row scaled by `s r`, the bias added, the negative part cut off:
                     entry `(r, k)` is `max (A (r, k) * s r + b k) 0`;
  * `aff A s b`   — the same without the cut-off: entry `(r, q)` is `A (r, q) * s r + b q`.

  Layer one is `lin x s_out W1`; after aggregation `A1` layer two is `lin (act A1 s_in b1) s_out W2`; after aggregation
  `A2` the result is `aff A2 s_in b2`.  No step needs more than the definitions: sums are over a finite index set in
  any order, and a change of float format is the identity on the extended reals.
-/
import Idealize.ShloMosaic.PureOps.Ideal
import Idealize.ShloMosaic.Lib.ValueIdx

noncomputable section

namespace Cert.Gcn

open Idealize.ShloMosaic Idealize.ShloMosaic.ValueIdx
open scoped BigOperators

/-- The zero the cut-off compares with: the float word of `0.0`, read on the extended reals. -/
abbrev zeroWord : EReal := Ideal.ofBits .f32 0x00000000#32

/-- Entry `(r, q)` of the scaled rows of `X` times `W`. -/
def linAt {N K M : ℕ} (X : (⟨2, ![N, K]⟩ : Shape).Idx → EReal) (s : Fin N → EReal)
    (W : (⟨2, ![K, M]⟩ : Shape).Idx → EReal) (r : Fin N) (q : Fin M) : EReal :=
  ∑ k : Fin K, (X (ix2 r k) * s r) * W (ix2 k q)

/-- The scaled rows of `X` times `W`, as an array. -/
def lin {N K M : ℕ} (X : (⟨2, ![N, K]⟩ : Shape).Idx → EReal) (s : Fin N → EReal)
    (W : (⟨2, ![K, M]⟩ : Shape).Idx → EReal) : (⟨2, ![N, M]⟩ : Shape).Idx → EReal :=
  fun i => linAt X s W (i 0) (i 1)

/-- Entry `(r, k)` of the scaled, biased, rectified aggregate. -/
def actAt {N K : ℕ} (A : (⟨2, ![N, K]⟩ : Shape).Idx → EReal) (s : Fin N → EReal) (b : Fin K → EReal)
    (r : Fin N) (k : Fin K) : EReal :=
  max (A (ix2 r k) * s r + b k) zeroWord

/-- The scaled, biased, rectified aggregate, as an array. -/
def act {N K : ℕ} (A : (⟨2, ![N, K]⟩ : Shape).Idx → EReal) (s : Fin N → EReal) (b : Fin K → EReal) :
    (⟨2, ![N, K]⟩ : Shape).Idx → EReal :=
  fun i => actAt A s b (i 0) (i 1)

/-- Entry `(r, q)` of the scaled, biased aggregate. -/
def affAt {N M : ℕ} (A : (⟨2, ![N, M]⟩ : Shape).Idx → EReal) (s : Fin N → EReal) (b : Fin M → EReal)
    (r : Fin N) (q : Fin M) : EReal :=
  A (ix2 r q) * s r + b q

/-- The scaled, biased aggregate, as an array. -/
def aff {N M : ℕ} (A : (⟨2, ![N, M]⟩ : Shape).Idx → EReal) (s : Fin N → EReal) (b : Fin M → EReal) :
    (⟨2, ![N, M]⟩ : Shape).Idx → EReal :=
  fun i => affAt A s b (i 0) (i 1)

theorem lin_ix2 {N K M : ℕ} (X : (⟨2, ![N, K]⟩ : Shape).Idx → EReal) (s : Fin N → EReal)
    (W : (⟨2, ![K, M]⟩ : Shape).Idx → EReal) (r : Fin N) (q : Fin M) : lin X s W (ix2 r q) = linAt X s W r q := rfl

theorem act_ix2 {N K : ℕ} (A : (⟨2, ![N, K]⟩ : Shape).Idx → EReal) (s : Fin N → EReal) (b : Fin K → EReal)
    (r : Fin N) (k : Fin K) : act A s b (ix2 r k) = actAt A s b r k := rfl

theorem aff_ix2 {N M : ℕ} (A : (⟨2, ![N, M]⟩ : Shape).Idx → EReal) (s : Fin N → EReal) (b : Fin M → EReal)
    (r : Fin N) (q : Fin M) : aff A s b (ix2 r q) = affAt A s b r q := rfl

end Cert.Gcn

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Layer1.lean ====
/-
  The first dense stage on the device: what the node-feature transform leaves in its result array.

  The rows are cut into ten blocks of 5000.  At block `t` the body multiplies each of its 5000 rows of `x` by that row's
  scale (a column of height 5000), rounds to a narrower float format (the identity on the extended reals) and multiplies
  by the whole weight matrix into a zero accumulator.  Entry `(p, q)` of what it stores is therefore
  `∑ k, (x (5000 t + p, k) * s (5000 t + p)) * W (k, q)`: row `5000 t + p` of `lin x s W`.  The ten blocks tile the
  50000 rows (row `r` lies in block `r / 5000`), so the array ends holding `lin x s W` whole.  Everything is stated
  for ANY contents `V` of the buffers when the stage is entered.
-/
import proofs.«154052_j72232759984610_1_alg».proof.Proof.Gen.KernelIdeal.Frame
import proofs.«154052_j72232759984610_1_alg».proof.Proof.Spec
import proofs.«154052_j72232759984610_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-- The body's matrix product: 5000 rows of width 128 against a 128 × 128 matrix. -/
abbrev D := dot_S5000x128_S128x128_S5000x128_1_0_0_1_n_n

theorem lhs0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x128.Idx) (q : D.contr.Idx) : (D.lhsIdx i q 1).val = (q ⟨0, by decide⟩).val :=
  D.lhsIdx_val_of_single rfl i q
theorem rhs0 (i : S5000x128.Idx) (q : D.contr.Idx) : (D.rhsIdx i q 0).val = (q ⟨0, by decide⟩).val :=
  D.rhsIdx_val_of_single rfl i q
theorem rhs1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- What the body stores, at entry `(p, q)` of the block: the scaled row `p` against column `q` of the weights. -/
theorem pay_apply (x0 : Vec Ideal S5000x128 .f32) (x1 : Vec Ideal S5000x1 .f32) (x2 : Vec Ideal S128x128 .f32)
    (p : Fin 5000) (q : Fin 128) :
    k0_pay1 x0 x1 x2 (ix2 p q) = ∑ k : Fin 128, (x0 (ix2 p k) * x1 (ix2 p (0 : Fin 1))) * x2 (ix2 k q) := by
  unfold k0_pay1
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]
  show (x0 (ix2 p k) * broadcastTo S5000x128 (shapeCast S5000x1 x1 shapeCasts_S5000x1_S5000x1) broadcasts_S5000x1_S5000x128 (ix2 p k)) * x2 (ix2 k q) = _
  rw [shapeCast_self, Cert.Bridge.Layout.broadcastTo_a1_an_apply]

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the three row-blocked windows at block row `t`, the weights at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `5000 t + p` of the array. -/
def row (t : Fin cfg0.N) (p : Fin 5000) : Fin 50000 :=
  ⟨5000 * t.val + p.val, by have h := t.isLt; have hN : cfg0.N = 10 := N_0; have := p.isLt; omega⟩

/-- The features' block at point `t`: rows `5000 t …` of the features. -/
theorem blk_x (c : Dev nD) (t : Fin cfg0.N) (p : Fin 5000) (k : Fin 128) :
    (iblk0 V c 0 t : Vec Ideal S5000x128 .f32) (ix2 p k) = (V c main_arg2 : S50000x128.Idx → EReal) (ix2 (row t p) k) := by
  obtain ⟨e0, e1, -⟩ := idx_facts t
  unfold iblk0
  rw [View.read_apply]
  refine congrArg (V c main_arg2 : S50000x128.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The scale column's block at point `t`: entries `5000 t …` of the column. -/
theorem blk_s (c : Dev nD) (t : Fin cfg0.N) (p : Fin 5000) :
    (iblk0 V c 1 t : Vec Ideal S5000x1 .f32) (ix2 p (0 : Fin 1)) = (V c main_v11 : S50000x1.Idx → EReal) (ix2 (row t p) (0 : Fin 1)) := by
  obtain ⟨-, -, e0, e1, -⟩ := idx_facts t
  unfold iblk0
  rw [View.read_apply]
  refine congrArg (V c main_v11 : S50000x1.Idx → EReal) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

/-- The weights' block at every point is the whole matrix. -/
theorem blk_w (c : Dev nD) (t : Fin cfg0.N) (k : Fin 128) (q : Fin 128) :
    (iblk0 V c 2 t : Vec Ideal S128x128 .f32) (ix2 k q) = (V c main_arg3 : S128x128.Idx → EReal) (ix2 k q) := by
  obtain ⟨-, -, -, -, e0, e1, -⟩ := idx_facts t
  unfold iblk0
  rw [View.read_apply]
  refine congrArg (V c main_arg3 : S128x128.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The stage's result as one array: the features' rows, each scaled by its entry of the column, times the weights. -/
def result (c : Dev nD) : S50000x128.Idx → EReal :=
  Cert.Gcn.lin (V c main_arg2 : S50000x128.Idx → EReal) (fun r => (V c main_v11 : S50000x1.Idx → EReal) (ix2 r (0 : Fin 1)))
    (V c main_arg3 : S128x128.Idx → EReal)

/-- What point `t` writes back is block `t` of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q) = result V c (((cfg0.win 3).blk t).view.emb (ix2 p q))
  refine (pay_apply (iblk0 V c 0 t) (iblk0 V c 1 t) (iblk0 V c 2 t) p q).trans ?_
  have e : ((cfg0.win 3).blk t).view.emb (ix2 p q) = (ix2 (row t p) q : S50000x128.Idx) := by
    obtain ⟨-, -, -, -, -, -, e0, e1⟩ := idx_facts t
    funext a; apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  rw [e]
  unfold result
  rw [Cert.Gcn.lin_ix2]
  unfold Cert.Gcn.linAt
  refine Finset.sum_congr rfl fun k _ => ?_
  rw [blk_x, blk_s, blk_w]

/-- The block a row lies in: row `r` in block `r / 5000`. -/
def blockOf (r : Fin 50000) : Fin cfg0.N :=
  ⟨r.val / 5000, by have hN : cfg0.N = 10 := N_0; have := r.isLt; omega⟩

/-- Every row lies in some point's block. -/
theorem cover (c : Dev nD) (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  refine ⟨blockOf (i 0), flush0_3 _, ?_⟩
  obtain ⟨-, -, -, -, -, -, e0, e1⟩ := idx_facts (blockOf (i 0))
  have ev : (blockOf (i 0)).val = (i 0).val / 5000 := rfl
  show i ∈ ((View.whole main_v12).slice (win0_3.rect (blockOf (i 0)))).set
  rw [View.set_slice_whole, Rect.mem_set_unit]
  intro a
  match a with
  | ⟨0, _⟩ =>
    show win0_3.index (blockOf (i 0)) (0 : Fin 2) * 5000 ≤ (i 0).val ∧ (i 0).val < win0_3.index (blockOf (i 0)) (0 : Fin 2) * 5000 + 5000
    rw [e0, ev]; omega
  | ⟨1, _⟩ =>
    show win0_3.index (blockOf (i 0)) (1 : Fin 2) * 128 ≤ (i 1).val ∧ (i 1).val < win0_3.index (blockOf (i 0)) (1 : Fin 2) * 128 + 128
    rw [e1]; omega

/-- After the stage its result array holds `result`. -/
theorem arr_eq (c : Dev nD) : (dat0 V c).arrAt 3 cfg0.N = result V c :=
  (dat0 V c).arrAt_eq_of_cover 3 (result V c) (fun t _ => flushed_eq V c t) (cover c)

end Cert.KernelIdeal.Layer1

end
-- ==== Proof.Layer2.lean ====
/-
  The second dense stage on the device: what it leaves in its result array.

  The rows are again cut into ten blocks of 5000.  At block `t` the body takes 5000 rows of the aggregate `A`, scales
  each by that row's in-scale, adds the bias row, cuts off the negative part, scales by that row's out-scale, rounds to
  a narrower float format (the identity on the extended reals) and multiplies by the whole 128 × 64 weight matrix into a
  zero accumulator.  Entry `(p, q)` of what it stores is
  `∑ k, (max (A (r, k) * s_in r + b k) 0 * s_out r) * W (k, q)` at `r = 5000 t + p`: row `r` of
  `lin (act A s_in b) s_out W`.  The blocks tile the rows, so the array ends holding that function whole.  Stated for
  ANY contents `V` of the buffers when the stage is entered.
-/
import proofs.«154052_j72232759984610_1_alg».proof.Proof.Gen.KernelIdeal.Frame
import proofs.«154052_j72232759984610_1_alg».proof.Proof.Spec
import proofs.«154052_j72232759984610_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-- The body's matrix product: 5000 rows of width 128 against a 128 × 64 matrix. -/
abbrev D := dot_S5000x128_S128x64_S5000x64_1_0_0_1_n_n

theorem lhs0 (i : S5000x64.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x64.Idx) (q : D.contr.Idx) : (D.lhsIdx i q 1).val = (q ⟨0, by decide⟩).val :=
  D.lhsIdx_val_of_single rfl i q
theorem rhs0 (i : S5000x64.Idx) (q : D.contr.Idx) : (D.rhsIdx i q 0).val = (q ⟨0, by decide⟩).val :=
  D.rhsIdx_val_of_single rfl i q
theorem rhs1 (i : S5000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- What the body stores, at entry `(p, q)` of the block: the rectified, rescaled row `p` against column `q` of the
    weights. -/
theorem pay_apply (x0 : Vec Ideal S5000x128 .f32) (x1 : Vec Ideal S5000x1 .f32) (x2 : Vec Ideal S1x128 .f32)
    (x3 : Vec Ideal S5000x1 .f32) (x4 : Vec Ideal S128x64 .f32) (p : Fin 5000) (q : Fin 64) :
    k1_pay1 x0 x1 x2 x3 x4 (ix2 p q)
      = ∑ k : Fin 128, (max (x0 (ix2 p k) * x1 (ix2 p (0 : Fin 1)) + x2 (ix2 (0 : Fin 1) k)) Cert.Gcn.zeroWord
          * x3 (ix2 p (0 : Fin 1))) * x4 (ix2 k q) := by
  unfold k1_pay1
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]
  show (max (shapeCast S5000x128 x0 shapeCasts_S5000x128_S5000x128 (ix2 p k)
          * broadcastTo S5000x128 (shapeCast S5000x1 x1 shapeCasts_S5000x1_S5000x1) broadcasts_S5000x1_S5000x128 (ix2 p k)
          + broadcastTo S5000x128 (shapeCast S1x128 x2 shapeCasts_S1x128_S1x128) broadcasts_S1x128_S5000x128 (ix2 p k))
        Cert.Gcn.zeroWord
      * broadcastTo S5000x128 (shapeCast S5000x1 x3 shapeCasts_S5000x1_S5000x1) broadcasts_S5000x1_S5000x128 (ix2 p k))
      * x4 (ix2 k q) = _
  simp only [shapeCast_self]
  rw [Cert.Bridge.Layout.broadcastTo_a1_an_apply, Cert.Bridge.Layout.broadcastTo_a1_an_apply, broadcastTo_1b_ab_apply]

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row-blocked windows at block row `t`, the bias row and the
    weights at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `5000 t + p` of the array. -/
def row (t : Fin cfg1.N) (p : Fin 5000) : Fin 50000 :=
  ⟨5000 * t.val + p.val, by have h := t.isLt; have hN : cfg1.N = 10 := N_1; have := p.isLt; omega⟩

/-- The aggregate's block at point `t`: rows `5000 t …` of the aggregate. -/
theorem blk_a (c : Dev nD) (t : Fin cfg1.N) (p : Fin 5000) (k : Fin 128) :
    (iblk1 V c 0 t : Vec Ideal S5000x128 .f32) (ix2 p k) = (V c main_v22 : S50000x128.Idx → EReal) (ix2 (row t p) k) := by
  obtain ⟨e0, e1, -⟩ := idx_facts t
  unfold iblk1
  rw [View.read_apply]
  refine congrArg (V c main_v22 : S50000x128.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The in-scale column's block at point `t`. -/
theorem blk_sin (c : Dev nD) (t : Fin cfg1.N) (p : Fin 5000) :
    (iblk1 V c 1 t : Vec Ideal S5000x1 .f32) (ix2 p (0 : Fin 1)) = (V c main_v23 : S50000x1.Idx → EReal) (ix2 (row t p) (0 : Fin 1)) := by
  obtain ⟨-, -, e0, e1, -⟩ := idx_facts t
  unfold iblk1
  rw [View.read_apply]
  refine congrArg (V c main_v23 : S50000x1.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

/-- The bias row's block at every point is the whole row. -/
theorem blk_b (c : Dev nD) (t : Fin cfg1.N) (k : Fin 128) :
    (iblk1 V c 2 t : Vec Ideal S1x128 .f32) (ix2 (0 : Fin 1) k) = (V c main_v25 : S1x128.Idx → EReal) (ix2 (0 : Fin 1) k) := by
  obtain ⟨-, -, -, -, e0, e1, -⟩ := idx_facts t
  unfold iblk1
  rw [View.read_apply]
  refine congrArg (V c main_v25 : S1x128.Idx → EReal) (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The out-scale column's block at point `t`. -/
theorem blk_sout (c : Dev nD) (t : Fin cfg1.N) (p : Fin 5000) :
    (iblk1 V c 3 t : Vec Ideal S5000x1 .f32) (ix2 p (0 : Fin 1)) = (V c main_v24 : S50000x1.Idx → EReal) (ix2 (row t p) (0 : Fin 1)) := by
  obtain ⟨-, -, -, -, -, -, e0, e1, -⟩ := idx_facts t
  unfold iblk1
  rw [View.read_apply]
  refine congrArg (V c main_v24 : S50000x1.Idx → EReal) (funext fun a => Fin.ext ?_)
  match a with
  | ⟨0, _⟩ => show win1_3.index t (0 : Fin 2) * 5000 + 1 * p.val = 5000 * t.val + p.val; rw [e0]; omega
  | ⟨1, _⟩ => show win1_3.index t (1 : Fin 2) * 1 + 1 * 0 = 0; rw [e1]

/-- The weights' block at every point is the whole matrix. -/
theorem blk_w (c : Dev nD) (t : Fin cfg1.N) (k : Fin 128) (q : Fin 64) :
    (iblk1 V c 4 t : Vec Ideal S128x64 .f32) (ix2 k q) = (V c main_arg5 : S128x64.Idx → EReal) (ix2 k q) := by
  obtain ⟨-, -, -, -, -, -, -, -, e0, e1, -⟩ := idx_facts t
  unfold iblk1
  rw [View.read_apply]
  refine congrArg (V c main_arg5 : S128x64.Idx → EReal) (funext fun a => Fin.ext ?_)
  match a with
  | ⟨0, _⟩ => show win1_4.index t (0 : Fin 2) * 128 + 1 * k.val = k.val; rw [e0]; omega
  | ⟨1, _⟩ => show win1_4.index t (1 : Fin 2) * 64 + 1 * q.val = q.val; rw [e1]; omega

/-- The stage's result as one array. -/
def result (c : Dev nD) : S50000x64.Idx → EReal :=
  Cert.Gcn.lin
    (Cert.Gcn.act (V c main_v22 : S50000x128.Idx → EReal) (fun r => (V c main_v23 : S50000x1.Idx → EReal) (ix2 r (0 : Fin 1)))
      (fun k => (V c main_v25 : S1x128.Idx → EReal) (ix2 (0 : Fin 1) k)))
    (fun r => (V c main_v24 : S50000x1.Idx → EReal) (ix2 r (0 : Fin 1)))
    (V c main_arg5 : S128x64.Idx → EReal)

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz,
    View.ld_unit_zero (S := S128x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = result V c (((cfg1.win 5).blk t).view.emb (ix2 p q))
  refine (pay_apply (iblk1 V c 0 t) (iblk1 V c 1 t) (iblk1 V c 2 t) (iblk1 V c 3 t) (iblk1 V c 4 t) p q).trans ?_
  have e : ((cfg1.win 5).blk t).view.emb (ix2 p q) = (ix2 (row t p) q : S50000x64.Idx) := by
    obtain ⟨-, -, -, -, -, -, -, -, -, -, e0, e1⟩ := idx_facts t
    funext a; apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  rw [e]
  unfold result
  rw [Cert.Gcn.lin_ix2]
  unfold Cert.Gcn.linAt
  refine Finset.sum_congr rfl fun k _ => ?_
  rw [blk_a, blk_sin, blk_b, blk_sout, blk_w, Cert.Gcn.act_ix2]
  rfl

/-- The block a row lies in: row `r` in block `r / 5000`. -/
def blockOf (r : Fin 50000) : Fin cfg1.N :=
  ⟨r.val / 5000, by have hN : cfg1.N = 10 := N_1; have := r.isLt; omega⟩

/-- Every row lies in some point's block. -/
theorem cover (c : Dev nD) (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  refine ⟨blockOf (i 0), flush1_5 _, ?_⟩
  obtain ⟨-, -, -, -, -, -, -, -, -, -, e0, e1⟩ := idx_facts (blockOf (i 0))
  have ev : (blockOf (i 0)).val = (i 0).val / 5000 := rfl
  show i ∈ ((View.whole main_v26).slice (win1_5.rect (blockOf (i 0)))).set
  rw [View.set_slice_whole, Rect.mem_set_unit]
  intro a
  match a with
  | ⟨0, _⟩ =>
    show win1_5.index (blockOf (i 0)) (0 : Fin 2) * 5000 ≤ (i 0).val ∧ (i 0).val < win1_5.index (blockOf (i 0)) (0 : Fin 2) * 5000 + 5000
    rw [e0, ev]; omega
  | ⟨1, _⟩ =>
    show win1_5.index (blockOf (i 0)) (1 : Fin 2) * 64 ≤ (i 1).val ∧ (i 1).val < win1_5.index (blockOf (i 0)) (1 : Fin 2) * 64 + 64
    rw [e1]; omega

/-- After the stage its result array holds `result`. -/
theorem arr_eq (c : Dev nD) : (dat1 V c).arrAt 5 cfg1.N = result V c :=
  (dat1 V c).arrAt_eq_of_cover 5 (result V c) (fun t _ => flushed_eq V c t) (cover c)

end Cert.KernelIdeal.Layer2

end
-- ==== Proof.Layer3.lean ====
/-
  The last stage on the device: what it leaves in its result array.

  The rows are cut into ten blocks of 5000.  At block `t` the body takes 5000 rows of the aggregate `A`, scales each by
  that row's in-scale and adds the bias row: entry `(p, q)` of what it stores is `A (r, q) * s_in r + b q` at
  `r = 5000 t + p`, row `r` of `aff A s_in b`.  The blocks tile the rows, so the array ends holding `aff A s_in b`
  whole.  Stated for ANY contents `V` of the buffers when the stage is entered.
-/
import proofs.«154052_j72232759984610_1_alg».proof.Proof.Gen.KernelIdeal.Frame
import proofs.«154052_j72232759984610_1_alg».proof.Proof.Spec
import proofs.«154052_j72232759984610_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer3

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-- What the body stores, at entry `(p, q)` of the block. -/
theorem pay_apply (x0 : Vec Ideal S5000x64 .f32) (x1 : Vec Ideal S5000x1 .f32) (x2 : Vec Ideal S1x64 .f32)
    (p : Fin 5000) (q : Fin 64) :
    k2_pay1 x0 x1 x2 (ix2 p q) = x0 (ix2 p q) * x1 (ix2 p (0 : Fin 1)) + x2 (ix2 (0 : Fin 1) q) := by
  unfold k2_pay1
  show shapeCast S5000x64 x0 shapeCasts_S5000x64_S5000x64 (ix2 p q)
        * broadcastTo S5000x64 (shapeCast S5000x1 x1 shapeCasts_S5000x1_S5000x1) broadcasts_S5000x1_S5000x64 (ix2 p q)
      + broadcastTo S5000x64 (shapeCast S1x64 x2 shapeCasts_S1x64_S1x64) broadcasts_S1x64_S5000x64 (ix2 p q) = _
  simp only [shapeCast_self]
  rw [Cert.Bridge.Layout.broadcastTo_a1_an_apply, broadcastTo_1b_ab_apply]

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row-blocked windows at block row `t`, the bias row at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of block `t` is row `5000 t + p` of the array. -/
def row (t : Fin cfg2.N) (p : Fin 5000) : Fin 50000 :=
  ⟨5000 * t.val + p.val, by have h := t.isLt; have hN : cfg2.N = 10 := N_2; have := p.isLt; omega⟩

/-- The aggregate's block at point `t`: rows `5000 t …` of the aggregate. -/
theorem blk_a (c : Dev nD) (t : Fin cfg2.N) (p : Fin 5000) (q : Fin 64) :
    (iblk2 V c 0 t : Vec Ideal S5000x64 .f32) (ix2 p q) = (V c main_v36 : S50000x64.Idx → EReal) (ix2 (row t p) q) := by
  obtain ⟨e0, e1, -⟩ := idx_facts t
  unfold iblk2
  rw [View.read_apply]
  refine congrArg (V c main_v36 : S50000x64.Idx → EReal) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 64 + 1 * q.val = q.val; rw [e1]; omega

/-- The in-scale column's block at point `t`. -/
theorem blk_sin (c : Dev nD) (t : Fin cfg2.N) (p : Fin 5000) :
    (iblk2 V c 1 t : Vec Ideal S5000x1 .f32) (ix2 p (0 : Fin 1)) = (V c main_v37 : S50000x1.Idx → EReal) (ix2 (row t p) (0 : Fin 1)) := by
  obtain ⟨-, -, e0, e1, -⟩ := idx_facts t
  unfold iblk2
  rw [View.read_apply]
  refine congrArg (V c main_v37 : S50000x1.Idx → EReal) (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 1 + 1 * 0 = 0; rw [e1]

/-- The bias row's block at every point is the whole row. -/
theorem blk_b (c : Dev nD) (t : Fin cfg2.N) (q : Fin 64) :
    (iblk2 V c 2 t : Vec Ideal S1x64 .f32) (ix2 (0 : Fin 1) q) = (V c main_v38 : S1x64.Idx → EReal) (ix2 (0 : Fin 1) q) := by
  obtain ⟨-, -, -, -, e0, e1, -⟩ := idx_facts t
  unfold iblk2
  rw [View.read_apply]
  refine congrArg (V c main_v38 : S1x64.Idx → EReal) (funext fun a => Fin.ext ?_)
  match a with
  | ⟨0, _⟩ => show win2_2.index t (0 : Fin 2) * 1 + 1 * 0 = 0; rw [e0]
  | ⟨1, _⟩ => show win2_2.index t (1 : Fin 2) * 64 + 1 * q.val = q.val; rw [e1]; omega

/-- The stage's result as one array. -/
def result (c : Dev nD) : S50000x64.Idx → EReal :=
  Cert.Gcn.aff (V c main_v36 : S50000x64.Idx → EReal) (fun r => (V c main_v37 : S50000x1.Idx → EReal) (ix2 r (0 : Fin 1)))
    (fun q => (V c main_v38 : S1x64.Idx → EReal) (ix2 (0 : Fin 1) q))

/-- What point `t` writes back is block `t` of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (ix2 p q)
    = result V c (((cfg2.win 3).blk t).view.emb (ix2 p q))
  refine (pay_apply (iblk2 V c 0 t) (iblk2 V c 1 t) (iblk2 V c 2 t) p q).trans ?_
  have e : ((cfg2.win 3).blk t).view.emb (ix2 p q) = (ix2 (row t p) q : S50000x64.Idx) := by
    obtain ⟨-, -, -, -, -, -, e0, e1⟩ := idx_facts t
    funext a; apply Fin.ext
    match a with
    | ⟨0, _⟩ => show win2_3.index t (0 : Fin 2) * 5000 + 1 * p.val = 5000 * t.val + p.val; rw [e0]; omega
    | ⟨1, _⟩ => show win2_3.index t (1 : Fin 2) * 64 + 1 * q.val = q.val; rw [e1]; omega
  rw [e]
  unfold result
  rw [Cert.Gcn.aff_ix2]
  unfold Cert.Gcn.affAt
  rw [blk_a, blk_sin, blk_b]

/-- The block a row lies in: row `r` in block `r / 5000`. -/
def blockOf (r : Fin 50000) : Fin cfg2.N :=
  ⟨r.val / 5000, by have hN : cfg2.N = 10 := N_2; have := r.isLt; omega⟩

/-- Every row lies in some point's block. -/
theorem cover (c : Dev nD) (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  refine ⟨blockOf (i 0), flush2_3 _, ?_⟩
  obtain ⟨-, -, -, -, -, -, e0, e1⟩ := idx_facts (blockOf (i 0))
  have ev : (blockOf (i 0)).val = (i 0).val / 5000 := rfl
  show i ∈ ((View.whole main_v39).slice (win2_3.rect (blockOf (i 0)))).set
  rw [View.set_slice_whole, Rect.mem_set_unit]
  intro a
  match a with
  | ⟨0, _⟩ =>
    show win2_3.index (blockOf (i 0)) (0 : Fin 2) * 5000 ≤ (i 0).val ∧ (i 0).val < win2_3.index (blockOf (i 0)) (0 : Fin 2) * 5000 + 5000
    rw [e0, ev]; omega
  | ⟨1, _⟩ =>
    show win2_3.index (blockOf (i 0)) (1 : Fin 2) * 64 ≤ (i 1).val ∧ (i 1).val < win2_3.index (blockOf (i 0)) (1 : Fin 2) * 64 + 64
    rw [e1]; omega

/-- After the stage its result array holds `result`. -/
theorem arr_eq (c : Dev nD) : (dat2 V c).arrAt 3 cfg2.N = result V c :=
  (dat2 V c).arrAt_eq_of_cover 3 (result V c) (fun t _ => flushed_eq V c t) (cover c)

end Cert.KernelIdeal.Layer3

end
-- ==== Proof.RefLayers.lean ====
/-
  The reference, stage by stage, in the vocabulary of the specification.

  The reference computes the two per-node scales `s_out` and `s_in` from the edge lists, then
    h1 = (x scaled row-wise by s_out) · W1,       A1 = rows of h1 gathered by source and added up by destination,
    h2 = (relu (A1 scaled by s_in, plus b1) scaled by s_out) · W2,       A2 = the same aggregation of h2,
    out = A2 scaled by s_in, plus b2.
  Read at an index, each broadcast of a scale picks the scale of the row, each broadcast of a bias the bias of the column,
  and a product of matrices is the sum over the contracted axis.  So h1 = `lin x s_out W1`,
  h2 = `lin (act A1 s_in b1) s_out W2` and out = `aff A2 s_in b2`.  The aggregation (gather, then scatter-add into
  zeros) is left as it is printed and given a name, `agg1` for width 128 and `agg2` for width 64: the other program
  applies the very same operations.
-/
import proofs.«154052_j72232759984610_1_alg».proof.Proof.Gen.ReferenceIdeal.Read
import proofs.«154052_j72232759984610_1_alg».proof.Proof.Spec
import Idealize.ShloMosaic.Lib.ValueIdx

noncomputable section

namespace Cert.ReferenceIdeal.Layers

open Idealize.ShloMosaic Idealize.ShloMosaic.ValueIdx
open Cert.ReferenceIdeal Cert.ReferenceIdeal.Read
open scoped BigOperators

/-- An edge list: 800000 node numbers. -/
abbrev Edges := (⟨S800000, .i32⟩ : BufTy).Contents (Elt Ideal)

/-- The out-scale of node `r`: the reciprocal square root of its clipped out-degree. -/
def sOut (x0 : Edges) : Fin 50000 → EReal := fun r => val_main_v9 (F := Ideal) x0 (ix1 r)

/-- The in-scale of node `r`: the reciprocal square root of its clipped in-degree. -/
def sIn (x1 : Edges) : Fin 50000 → EReal := fun r => val_main_v10 (F := Ideal) x1 (ix1 r)

/-- Rows of a 50000 × 128 array gathered by source node and added up by destination node. -/
def agg1 (x0 x1 : Edges) (H : FVec Ideal S50000x128 .f32) : FVec Ideal S50000x128 .f32 :=
  Host.scatterAdd (F := Ideal) scatter_S50000x128_S800000x1_S800000x128_1_0_0_1 (val_main_v22 (F := Ideal)) (val_main_v23 (F := Ideal) x1)
    (Host.gather gather_S50000x128_S800000x1_S800000x128_1_0_n_n_0_1_1128 H (val_main_v20 (F := Ideal) x0))

/-- Rows of a 50000 × 64 array gathered by source node and added up by destination node. -/
def agg2 (x0 x1 : Edges) (H : FVec Ideal S50000x64 .f32) : FVec Ideal S50000x64 .f32 :=
  Host.scatterAdd (F := Ideal) scatter_S50000x64_S800000x1_S800000x64_1_0_0_1 (val_main_v43 (F := Ideal)) (val_main_v44 (F := Ideal) x1)
    (Host.gather gather_S50000x64_S800000x1_S800000x64_1_0_n_n_0_1_164 H (val_main_v41 (F := Ideal) x0))

set_option maxRecDepth 65536 in
theorem v24_eq (x0 x1 : Edges) (x2 : (⟨S50000x128, .f32⟩ : BufTy).Contents (Elt Ideal)) (x3 : (⟨S128x128, .f32⟩ : BufTy).Contents (Elt Ideal)) :
    val_main_v24 (F := Ideal) x0 x1 x2 x3 = agg1 x0 x1 (val_main_v14 (F := Ideal) x0 x2 x3) := rfl

set_option maxRecDepth 65536 in
theorem v45_eq (x0 x1 : Edges) (x2 : (⟨S50000x128, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) :
    val_main_v45 (F := Ideal) x0 x1 x2 x3 x4 x5 = agg2 x0 x1 (val_main_v35 (F := Ideal) x0 x1 x2 x3 x4 x5) := rfl

/-- The first product: the features scaled row-wise by the out-scale, times the first weights. -/
theorem layer1 (x0 : Edges) (x2 : (⟨S50000x128, .f32⟩ : BufTy).Contents (Elt Ideal)) (x3 : (⟨S128x128, .f32⟩ : BufTy).Contents (Elt Ideal)) :
    val_main_v14 (F := Ideal) x0 x2 x3 = Cert.Gcn.lin x2 (sOut x0) x3 := by
  funext i
  obtain ⟨p, q, rfl⟩ : ∃ (p : Fin 50000) (q : Fin 128), i = ix2 p q := ⟨i 0, i 1, eq_ix2 i⟩
  rw [val_main_v14_apply, Cert.Gcn.lin_ix2]
  unfold Cert.Gcn.linAt
  refine Finset.sum_congr rfl fun k _ => ?_
  have h1 : lidx_main_v14 (ix2 p q) k = ix2 p k := funext fun a => Fin.ext (by match a with | ⟨0, _⟩ => rfl | ⟨1, _⟩ => rfl)
  have h2 : ridx_main_v14 (ix2 p q) k = ix2 k q := funext fun a => Fin.ext (by match a with | ⟨0, _⟩ => rfl | ⟨1, _⟩ => rfl)
  have h3 : idx_main_v11 (idx_main_v12 (ix2 p k)) = ix1 p := funext fun a => Fin.ext (by match a with | ⟨0, _⟩ => rfl)
  rw [h1, h2, val_main_v13_apply, val_main_v12_apply, val_main_v11_apply, h3]
  rfl

/-- The second product: the rectified first aggregate, rescaled, times the second weights. -/
theorem layer2 (x0 x1 : Edges) (x2 : (⟨S50000x128, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal)) :
    val_main_v35 (F := Ideal) x0 x1 x2 x3 x4 x5
      = Cert.Gcn.lin (Cert.Gcn.act (val_main_v24 (F := Ideal) x0 x1 x2 x3) (sIn x1) (fun k => x4 (ix1 k))) (sOut x0) x5 := by
  funext i
  obtain ⟨p, q, rfl⟩ : ∃ (p : Fin 50000) (q : Fin 64), i = ix2 p q := ⟨i 0, i 1, eq_ix2 i⟩
  rw [val_main_v35_apply, Cert.Gcn.lin_ix2]
  unfold Cert.Gcn.linAt
  refine Finset.sum_congr rfl fun k _ => ?_
  have h1 : lidx_main_v35 (ix2 p q) k = ix2 p k := funext fun a => Fin.ext (by match a with | ⟨0, _⟩ => rfl | ⟨1, _⟩ => rfl)
  have h2 : ridx_main_v35 (ix2 p q) k = ix2 k q := funext fun a => Fin.ext (by match a with | ⟨0, _⟩ => rfl | ⟨1, _⟩ => rfl)
  have h3 : idx_main_v32 (idx_main_v33 (ix2 p k)) = ix1 p := funext fun a => Fin.ext (by match a with | ⟨0, _⟩ => rfl)
  have h4 : idx_main_v25 (idx_main_v26 (ix2 p k)) = ix1 p := funext fun a => Fin.ext (by match a with | ⟨0, _⟩ => rfl)
  have h5 : idx_main_v28 (idx_main_v29 (ix2 p k)) = ix1 k := funext fun a => Fin.ext (by match a with | ⟨0, _⟩ => rfl)
  rw [h1, h2, val_main_v34_apply, val_main_v33_apply, val_main_v32_apply, h3, val_main_v31_apply, val_main_v30_apply,
    val_main_v27_apply, val_main_v26_apply, val_main_v25_apply, h4, val_main_v29_apply, val_main_v28_apply, h5,
    val_main_call2_v0_apply, val_main_call2_cst_apply, Cert.Gcn.act_ix2]
  rfl

/-- The last step: the second aggregate scaled by the in-scale, plus the second bias. -/
theorem layer3 (x0 x1 : Edges) (x2 : (⟨S50000x128, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) :
    val_main_v51 (F := Ideal) x0 x1 x2 x3 x4 x5 x6
      = Cert.Gcn.aff (val_main_v45 (F := Ideal) x0 x1 x2 x3 x4 x5) (sIn x1) (fun q => x6 (ix1 q)) := by
  funext i
  obtain ⟨p, q, rfl⟩ : ∃ (p : Fin 50000) (q : Fin 64), i = ix2 p q := ⟨i 0, i 1, eq_ix2 i⟩
  have h4 : idx_main_v46 (idx_main_v47 (ix2 p q)) = ix1 p := funext fun a => Fin.ext (by match a with | ⟨0, _⟩ => rfl)
  have h5 : idx_main_v49 (idx_main_v50 (ix2 p q)) = ix1 q := funext fun a => Fin.ext (by match a with | ⟨0, _⟩ => rfl)
  rw [val_main_v51_apply, val_main_v48_apply, val_main_v47_apply, val_main_v46_apply, h4, val_main_v50_apply, val_main_v49_apply, h5,
    Cert.Gcn.aff_ix2]
  rfl

/-- The reference's result, whole: three dense stages with the aggregation between them. -/
theorem whole (x0 x1 : Edges) (x2 : (⟨S50000x128, .f32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) :
    val_main_v51 (F := Ideal) x0 x1 x2 x3 x4 x5 x6
      = Cert.Gcn.aff (agg2 x0 x1 (Cert.Gcn.lin (Cert.Gcn.act (agg1 x0 x1 (Cert.Gcn.lin x2 (sOut x0) x3)) (sIn x1) (fun k => x4 (ix1 k)))
          (sOut x0) x5)) (sIn x1) (fun q => x6 (ix1 q)) := by
  rw [layer3, v45_eq, layer2, v24_eq, layer1]

end Cert.ReferenceIdeal.Layers

end
-- ==== Proof.HostPre.lean ====
/-
  The host operations before the first dense stage, read from ANY starting contents `W` of the buffers.

  They compute the two degree vectors (a scatter-add of ones along each edge list into zeros), clip them below at one,
  take reciprocal square roots — the out-scale from the first edge list, the in-scale from the second — and recast the
  out-scale as a column.  These are the reference's own first operations, so each scale is the reference's term of the
  edge list it is computed from.  No operation writes an argument: each argument reads as it did in `W`.
  The operations come in five stretches; each is read by itself, and the five readings are chained.
-/
import proofs.«154052_j72232759984610_1_alg».proof.Proof.Gen.KernelIdeal.Frame
import proofs.«154052_j72232759984610_1_alg».proof.Proof.RefLayers
import Idealize.ShloMosaic.Lib.StableHlo.Run

set_option maxRecDepth 16384

noncomputable section

namespace Cert.KernelIdeal.HostPre

open Idealize.ShloMosaic Idealize.ShloMosaic.TcCoe Idealize.ShloMosaic.StableHlo Idealize.SL.Sem
open Cert.KernelIdeal Cert.KernelIdeal.Gen
open Cert.ReferenceIdeal.Layers (Edges agg1 agg2)

variable (W : Valuation τ sig (Elt Ideal))

/-- The contents after the five stretches of host operations that precede the first stage. -/
abbrev pre : Valuation τ sig (Elt Ideal) :=
  StableHlo.after (hostOps0_4 (F := Ideal)) (StableHlo.after (hostOps0_3 (F := Ideal)) (StableHlo.after (hostOps0_2 (F := Ideal))
    (StableHlo.after (hostOps0_1 (F := Ideal)) (StableHlo.after (hostOps0 (F := Ideal)) W))))

/-! ## The arguments are not written -/

theorem arg0 : pre W (Proc.devRef .tc main_arg0) = W (Proc.devRef .tc main_arg0) := by
  simp only [pre, hostOps0, hostOps0_1, hostOps0_2, hostOps0_3, hostOps0_4]
  after_results <;> rfl

theorem arg1 : pre W (Proc.devRef .tc main_arg1) = W (Proc.devRef .tc main_arg1) := by
  simp only [pre, hostOps0, hostOps0_1, hostOps0_2, hostOps0_3, hostOps0_4]
  after_results <;> rfl

theorem arg2 : pre W (Proc.devRef .tc main_arg2) = W (Proc.devRef .tc main_arg2) := by
  simp only [pre, hostOps0, hostOps0_1, hostOps0_2, hostOps0_3, hostOps0_4]
  after_results <;> rfl

theorem arg3 : pre W (Proc.devRef .tc main_arg3) = W (Proc.devRef .tc main_arg3) := by
  simp only [pre, hostOps0, hostOps0_1, hostOps0_2, hostOps0_3, hostOps0_4]
  after_results <;> rfl

theorem arg4 : pre W (Proc.devRef .tc main_arg4) = W (Proc.devRef .tc main_arg4) := by
  simp only [pre, hostOps0, hostOps0_1, hostOps0_2, hostOps0_3, hostOps0_4]
  after_results <;> rfl

theorem arg5 : pre W (Proc.devRef .tc main_arg5) = W (Proc.devRef .tc main_arg5) := by
  simp only [pre, hostOps0, hostOps0_1, hostOps0_2, hostOps0_3, hostOps0_4]
  after_results <;> rfl

theorem arg6 : pre W (Proc.devRef .tc main_arg6) = W (Proc.devRef .tc main_arg6) := by
  simp only [pre, hostOps0, hostOps0_1, hostOps0_2, hostOps0_3, hostOps0_4]
  after_results <;> rfl

/-! ## The five stretches, one at a time -/

/-- First stretch: the out-degree vector (ones added up along the first edge list). -/
theorem s0_v3 : StableHlo.after (hostOps0 (F := Ideal)) W (Proc.devRef .tc main_v3) = Cert.ReferenceIdeal.Read.val_main_v3 (F := Ideal) (W (Proc.devRef .tc main_arg0)) := by
  simp only [hostOps0]
  after_results <;> rfl
/-- First stretch: the vector of ones. -/
theorem s0_v0 : StableHlo.after (hostOps0 (F := Ideal)) W (Proc.devRef .tc main_v0) = Cert.ReferenceIdeal.Read.val_main_v0 (F := Ideal) := by
  simp only [hostOps0]
  after_results <;> rfl
/-- First stretch: the clipping bound, one. -/
theorem s0_cst_1 : StableHlo.after (hostOps0 (F := Ideal)) W (Proc.devRef .tc main_cst_1) = Cert.ReferenceIdeal.Read.val_main_cst_1 (F := Ideal) := by
  simp only [hostOps0]
  after_results <;> rfl
theorem s0_arg1 : StableHlo.after (hostOps0 (F := Ideal)) W (Proc.devRef .tc main_arg1) = W (Proc.devRef .tc main_arg1) := by
  simp only [hostOps0]
  after_results <;> rfl

/-- Second stretch: the out-degree clipped below at the bound. -/
theorem s1_v4 : StableHlo.after (hostOps0_1 (F := Ideal)) W (Proc.devRef .tc main_v4)
    = (maximumf (broadcastInDim S50000 ![] bcast_S_S50000 (id (W (Proc.devRef .tc main_cst_1) : FVec Ideal S_ .f32)))
        (W (Proc.devRef .tc main_v3) : FVec Ideal S50000 .f32) : FVec Ideal S50000 .f32) := by
  simp only [hostOps0_1]
  after_results <;> rfl
theorem s1_v0 : StableHlo.after (hostOps0_1 (F := Ideal)) W (Proc.devRef .tc main_v0) = W (Proc.devRef .tc main_v0) := by
  simp only [hostOps0_1]
  after_results <;> rfl
theorem s1_arg1 : StableHlo.after (hostOps0_1 (F := Ideal)) W (Proc.devRef .tc main_arg1) = W (Proc.devRef .tc main_arg1) := by
  simp only [hostOps0_1]
  after_results <;> rfl

/-- Third stretch: the in-degree vector (the ones added up along the second edge list). -/
theorem s2_v7 : StableHlo.after (hostOps0_2 (F := Ideal)) W (Proc.devRef .tc main_v7)
    = (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (W (Proc.devRef .tc main_arg1)))
        (W (Proc.devRef .tc main_v0) : FVec Ideal S800000 .f32) : FVec Ideal S50000 .f32) := by
  simp only [hostOps0_2]
  after_results <;> rfl
theorem s2_cst_3 : StableHlo.after (hostOps0_2 (F := Ideal)) W (Proc.devRef .tc main_cst_3) = (constant (F := Ideal) S_ .f32 0x3F800000#32 : FVec Ideal S_ .f32) := by
  simp only [hostOps0_2]
  after_results <;> rfl
theorem s2_v4 : StableHlo.after (hostOps0_2 (F := Ideal)) W (Proc.devRef .tc main_v4) = W (Proc.devRef .tc main_v4) := by
  simp only [hostOps0_2]
  after_results <;> rfl

/-- Fourth stretch: the in-degree clipped below at the bound. -/
theorem s3_v8 : StableHlo.after (hostOps0_3 (F := Ideal)) W (Proc.devRef .tc main_v8)
    = (maximumf (broadcastInDim S50000 ![] bcast_S_S50000 (id (W (Proc.devRef .tc main_cst_3) : FVec Ideal S_ .f32)))
        (W (Proc.devRef .tc main_v7) : FVec Ideal S50000 .f32) : FVec Ideal S50000 .f32) := by
  simp only [hostOps0_3]
  after_results <;> rfl
theorem s3_v4 : StableHlo.after (hostOps0_3 (F := Ideal)) W (Proc.devRef .tc main_v4) = W (Proc.devRef .tc main_v4) := by
  simp only [hostOps0_3]
  after_results <;> rfl

/-- Fifth stretch: the reciprocal square roots, and the out-scale as a column. -/
theorem s4_v9 : StableHlo.after (hostOps0_4 (F := Ideal)) W (Proc.devRef .tc main_v9) = Host.rsqrt (F := Ideal) (s := S50000) (φ := .f32) (W (Proc.devRef .tc main_v4) : FVec Ideal S50000 .f32) := by
  simp only [hostOps0_4]
  after_results <;> rfl
theorem s4_v10 : StableHlo.after (hostOps0_4 (F := Ideal)) W (Proc.devRef .tc main_v10) = Host.rsqrt (F := Ideal) (s := S50000) (φ := .f32) (W (Proc.devRef .tc main_v8) : FVec Ideal S50000 .f32) := by
  simp only [hostOps0_4]
  after_results <;> rfl
theorem s4_v11 : StableHlo.after (hostOps0_4 (F := Ideal)) W (Proc.devRef .tc main_v11)
    = shapeCast S50000x1 (Host.rsqrt (F := Ideal) (s := S50000) (φ := .f32) (W (Proc.devRef .tc main_v4) : FVec Ideal S50000 .f32)) shapeCasts_S50000_S50000x1 := by
  simp only [hostOps0_4]
  after_results <;> rfl

/-! ## The five readings chained -/

/-- The clipped out-degree after the first two stretches is the reference's. -/
theorem v4_eq : StableHlo.after (hostOps0_1 (F := Ideal)) (StableHlo.after (hostOps0 (F := Ideal)) W) (Proc.devRef .tc main_v4)
    = Cert.ReferenceIdeal.Read.val_main_v4 (F := Ideal) (W (Proc.devRef .tc main_arg0)) := by
  rw [s1_v4, s0_cst_1, s0_v3]
  rfl

/-- The out-scale vector is the reference's, of the first edge list. -/
theorem v9 : pre W (Proc.devRef .tc main_v9) = Cert.ReferenceIdeal.Read.val_main_v9 (F := Ideal) (W (Proc.devRef .tc main_arg0)) := by
  show StableHlo.after (hostOps0_4 (F := Ideal)) _ (Proc.devRef .tc main_v9) = _
  rw [s4_v9, s3_v4, s2_v4, v4_eq]
  rfl

/-- The out-scale as a column. -/
theorem v11 : pre W (Proc.devRef .tc main_v11)
    = shapeCast S50000x1 (Cert.ReferenceIdeal.Read.val_main_v9 (F := Ideal) (W (Proc.devRef .tc main_arg0))) shapeCasts_S50000_S50000x1 := by
  show StableHlo.after (hostOps0_4 (F := Ideal)) _ (Proc.devRef .tc main_v11) = _
  rw [s4_v11, s3_v4, s2_v4, v4_eq]
  rfl

/-- The in-scale vector is the reference's, of the second edge list. -/
theorem v10 : pre W (Proc.devRef .tc main_v10) = Cert.ReferenceIdeal.Read.val_main_v10 (F := Ideal) (W (Proc.devRef .tc main_arg1)) := by
  show StableHlo.after (hostOps0_4 (F := Ideal)) _ (Proc.devRef .tc main_v10) = _
  rw [s4_v10, s3_v8, s2_cst_3, s2_v7, s1_v0, s1_arg1, s0_v0, s0_arg1]
  rfl

end Cert.KernelIdeal.HostPre

end
-- ==== Proof.HostMid.lean ====
/-
  The host operations between the dense stages, read from ANY starting contents `W` of the buffers.

  After a dense stage the program gathers the stage's rows by source node (negative node numbers wrapped around first)
  and adds them up by destination node into zeros: the reference's aggregation `agg1` (width 128) or `agg2` (width 64)
  of the stage's result, operation for operation.  Beside it the scales are recast as columns and the bias as a row for
  the next stage.  The edge lists, the in-scale, the weights and the second bias are not written.
-/
import proofs.«154052_j72232759984610_1_alg».proof.Proof.Gen.KernelIdeal.Frame
import proofs.«154052_j72232759984610_1_alg».proof.Proof.RefLayers
import Idealize.ShloMosaic.Lib.StableHlo.Run

set_option maxRecDepth 16384

noncomputable section

namespace Cert.KernelIdeal.HostMid

open Idealize.ShloMosaic Idealize.ShloMosaic.TcCoe Idealize.ShloMosaic.StableHlo Idealize.SL.Sem
open Cert.KernelIdeal Cert.KernelIdeal.Gen
open Cert.ReferenceIdeal.Layers (Edges agg1 agg2)

variable (W : Valuation τ sig (Elt Ideal))

/-! ## Between the first and the second stage -/

/-- The first aggregate: `agg1` of the first stage's result. -/
theorem v22 : StableHlo.after (hostOps1 (F := Ideal)) W (Proc.devRef .tc main_v22)
    = agg1 (W (Proc.devRef .tc main_arg0)) (W (Proc.devRef .tc main_arg1)) (W (Proc.devRef .tc main_v12)) := by
  simp only [hostOps1]
  after_results <;> rfl

/-- The in-scale as a column. -/
theorem v23 : StableHlo.after (hostOps1 (F := Ideal)) W (Proc.devRef .tc main_v23)
    = shapeCast S50000x1 (W (Proc.devRef .tc main_v10) : FVec Ideal S50000 .f32) shapeCasts_S50000_S50000x1 := by
  simp only [hostOps1]
  after_results <;> rfl

/-- The out-scale as a column. -/
theorem v24 : StableHlo.after (hostOps1 (F := Ideal)) W (Proc.devRef .tc main_v24)
    = shapeCast S50000x1 (W (Proc.devRef .tc main_v9) : FVec Ideal S50000 .f32) shapeCasts_S50000_S50000x1 := by
  simp only [hostOps1]
  after_results <;> rfl

/-- The first bias as a row. -/
theorem v25 : StableHlo.after (hostOps1 (F := Ideal)) W (Proc.devRef .tc main_v25)
    = shapeCast S1x128 (W (Proc.devRef .tc main_arg4) : FVec Ideal S128 .f32) shapeCasts_S128_S1x128 := by
  simp only [hostOps1]
  after_results <;> rfl

/-- `main_arg0` is not written. -/
theorem keep1_arg0 : StableHlo.after (hostOps1 (F := Ideal)) W (Proc.devRef .tc main_arg0) = W (Proc.devRef .tc main_arg0) := by
  simp only [hostOps1]
  after_results <;> rfl

/-- `main_arg1` is not written. -/
theorem keep1_arg1 : StableHlo.after (hostOps1 (F := Ideal)) W (Proc.devRef .tc main_arg1) = W (Proc.devRef .tc main_arg1) := by
  simp only [hostOps1]
  after_results <;> rfl

/-- `main_arg5` is not written. -/
theorem keep1_arg5 : StableHlo.after (hostOps1 (F := Ideal)) W (Proc.devRef .tc main_arg5) = W (Proc.devRef .tc main_arg5) := by
  simp only [hostOps1]
  after_results <;> rfl

/-- `main_arg6` is not written. -/
theorem keep1_arg6 : StableHlo.after (hostOps1 (F := Ideal)) W (Proc.devRef .tc main_arg6) = W (Proc.devRef .tc main_arg6) := by
  simp only [hostOps1]
  after_results <;> rfl

/-- `main_v10` is not written. -/
theorem keep1_v10 : StableHlo.after (hostOps1 (F := Ideal)) W (Proc.devRef .tc main_v10) = W (Proc.devRef .tc main_v10) := by
  simp only [hostOps1]
  after_results <;> rfl

/-! ## Between the second and the last stage -/

/-- The second aggregate: `agg2` of the second stage's result. -/
theorem v36 : StableHlo.after (hostOps2 (F := Ideal)) W (Proc.devRef .tc main_v36)
    = agg2 (W (Proc.devRef .tc main_arg0)) (W (Proc.devRef .tc main_arg1)) (W (Proc.devRef .tc main_v26)) := by
  simp only [hostOps2]
  after_results <;> rfl

/-- The in-scale as a column. -/
theorem v37 : StableHlo.after (hostOps2 (F := Ideal)) W (Proc.devRef .tc main_v37)
    = shapeCast S50000x1 (W (Proc.devRef .tc main_v10) : FVec Ideal S50000 .f32) shapeCasts_S50000_S50000x1 := by
  simp only [hostOps2]
  after_results <;> rfl

/-- The second bias as a row. -/
theorem v38 : StableHlo.after (hostOps2 (F := Ideal)) W (Proc.devRef .tc main_v38)
    = shapeCast S1x64 (W (Proc.devRef .tc main_arg6) : FVec Ideal S64 .f32) shapeCasts_S64_S1x64 := by
  simp only [hostOps2]
  after_results <;> rfl

end Cert.KernelIdeal.HostMid

end
-- ==== Proof.KernelValue.lean ====
/-
  The device program's result buffer, as a function of the launch arguments.

  Follow the buffers from boundary to boundary of the chain of segments.  Before the first stage the host operations
  leave the out-scale and in-scale vectors (the reference's own terms of the two edge lists) and the out-scale as a
  column; the arguments are untouched.  The first stage then leaves `H1 = lin x s_out W1` in its result array and writes
  nothing else.  The next host operations leave `G1 = agg1 H1` (rows gathered by source, added up by destination) beside
  the scales as columns and the first bias as a row; the second stage leaves `H2 = lin (act G1 s_in b1) s_out W2`; the
  host operations after it leave `G2 = agg2 H2`, the in-scale as a column and the second bias as a row; the last stage
  leaves `aff G2 s_in b2` in the result buffer.  That is the reference's result term, stage for stage.
  A scale or bias recast as a column or a row and read back at `(r, 0)` or `(0, k)` is the vector's entry `r` or `k`.
-/
import proofs.«154052_j72232759984610_1_alg».proof.Proof.Gen.KernelIdeal.Frame
import proofs.«154052_j72232759984610_1_alg».proof.Proof.Layer1
import proofs.«154052_j72232759984610_1_alg».proof.Proof.Layer2
import proofs.«154052_j72232759984610_1_alg».proof.Proof.Layer3
import proofs.«154052_j72232759984610_1_alg».proof.Proof.RefLayers
import proofs.«154052_j72232759984610_1_alg».proof.Proof.HostPre
import proofs.«154052_j72232759984610_1_alg».proof.Proof.HostMid
import proofs.«154052_j72232759984610_1_alg».proof.Proof.LibLayout
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen
open Cert.ReferenceIdeal.Layers (Edges sOut sIn agg1 agg2)

variable (m : (ℓ : Loc nD τ sig) → Buf (Elt Ideal) ℓ) (ρ : Dev nD → PrngReg) (c : Dev nD)

/-! ## The launch arguments and the stages' values -/

/-- The first edge list (source nodes). -/
abbrev A0 : Edges := m ((c.tc : Thread nD τ).loc main_arg0)
/-- The second edge list (destination nodes). -/
abbrev A1 : Edges := m ((c.tc : Thread nD τ).loc main_arg1)
/-- The node features. -/
abbrev A2 : FVec Ideal S50000x128 .f32 := m ((c.tc : Thread nD τ).loc main_arg2)
/-- The first weights. -/
abbrev A3 : FVec Ideal S128x128 .f32 := m ((c.tc : Thread nD τ).loc main_arg3)
/-- The first bias. -/
abbrev A4 : FVec Ideal S128 .f32 := m ((c.tc : Thread nD τ).loc main_arg4)
/-- The second weights. -/
abbrev A5 : FVec Ideal S128x64 .f32 := m ((c.tc : Thread nD τ).loc main_arg5)
/-- The second bias. -/
abbrev A6 : FVec Ideal S64 .f32 := m ((c.tc : Thread nD τ).loc main_arg6)

/-- The first stage's value. -/
def H1 : FVec Ideal S50000x128 .f32 := Cert.Gcn.lin (A2 m c) (sOut (A0 m c)) (A3 m c)
/-- The first aggregate. -/
def G1 : FVec Ideal S50000x128 .f32 := agg1 (A0 m c) (A1 m c) (H1 m c)
/-- The second stage's value. -/
def H2 : FVec Ideal S50000x64 .f32 :=
  Cert.Gcn.lin (Cert.Gcn.act (G1 m c) (sIn (A1 m c)) (fun k => A4 m c (ix1 k))) (sOut (A0 m c)) (A5 m c)
/-- The second aggregate. -/
def G2 : FVec Ideal S50000x64 .f32 := agg2 (A0 m c) (A1 m c) (H2 m c)
/-- The result. -/
def OUT : FVec Ideal S50000x64 .f32 := Cert.Gcn.aff (G2 m c) (sIn (A1 m c)) (fun q => A6 m c (ix1 q))

/-! ## A vector recast as a column or a row, read back -/

theorem col_read (s : FVec Ideal S50000 .f32) :
    (fun r : Fin 50000 => (shapeCast S50000x1 s shapeCasts_S50000_S50000x1 : S50000x1.Idx → EReal) (ix2 r (0 : Fin 1)))
      = fun r => s (ix1 r) :=
  funext fun r => Cert.Bridge.Layout.shapeCast_a_a1_apply s shapeCasts_S50000_S50000x1 r 0

theorem row_read128 (b : FVec Ideal S128 .f32) :
    (fun k : Fin 128 => (shapeCast S1x128 b shapeCasts_S128_S1x128 : S1x128.Idx → EReal) (ix2 (0 : Fin 1) k))
      = fun k => b (ix1 k) :=
  funext fun k => shapeCast_a_1a_apply b shapeCasts_S128_S1x128 0 k

theorem row_read64 (b : FVec Ideal S64 .f32) :
    (fun q : Fin 64 => (shapeCast S1x64 b shapeCasts_S64_S1x64 : S1x64.Idx → EReal) (ix2 (0 : Fin 1) q))
      = fun q => b (ix1 q) :=
  funext fun q => shapeCast_a_1a_apply b shapeCasts_S64_S1x64 0 q

/-! ## Before the first stage (boundary 5) -/

theorem b5_arg0 : W5 m ρ c (Proc.devRef .tc main_arg0) = A0 m c := HostPre.arg0 (W0 m ρ c)
theorem b5_arg1 : W5 m ρ c (Proc.devRef .tc main_arg1) = A1 m c := HostPre.arg1 (W0 m ρ c)
theorem b5_arg2 : W5 m ρ c (Proc.devRef .tc main_arg2) = A2 m c := HostPre.arg2 (W0 m ρ c)
theorem b5_arg3 : W5 m ρ c (Proc.devRef .tc main_arg3) = A3 m c := HostPre.arg3 (W0 m ρ c)
theorem b5_arg4 : W5 m ρ c (Proc.devRef .tc main_arg4) = A4 m c := HostPre.arg4 (W0 m ρ c)
theorem b5_arg5 : W5 m ρ c (Proc.devRef .tc main_arg5) = A5 m c := HostPre.arg5 (W0 m ρ c)
theorem b5_arg6 : W5 m ρ c (Proc.devRef .tc main_arg6) = A6 m c := HostPre.arg6 (W0 m ρ c)
theorem b5_v9 : W5 m ρ c (Proc.devRef .tc main_v9) = Cert.ReferenceIdeal.Read.val_main_v9 (F := Ideal) (A0 m c) := HostPre.v9 (W0 m ρ c)
theorem b5_v10 : W5 m ρ c (Proc.devRef .tc main_v10) = Cert.ReferenceIdeal.Read.val_main_v10 (F := Ideal) (A1 m c) := HostPre.v10 (W0 m ρ c)
theorem b5_v11 : W5 m ρ c (Proc.devRef .tc main_v11)
    = shapeCast S50000x1 (Cert.ReferenceIdeal.Read.val_main_v9 (F := Ideal) (A0 m c)) shapeCasts_S50000_S50000x1 := HostPre.v11 (W0 m ρ c)

/-! ## After the first stage (boundary 6) -/

theorem b6_v12 : W6 m ρ c (Proc.devRef .tc main_v12) = H1 m c := by
  refine (W6_arr m ρ c 3).trans ?_
  rw [Layer1.arr_eq]
  unfold Layer1.result H1
  have e2 : V5 m ρ c main_arg2 = A2 m c := b5_arg2 m ρ c
  have e3 : V5 m ρ c main_arg3 = A3 m c := b5_arg3 m ρ c
  have e11 : V5 m ρ c main_v11 = shapeCast S50000x1 (Cert.ReferenceIdeal.Read.val_main_v9 (F := Ideal) (A0 m c)) shapeCasts_S50000_S50000x1 := b5_v11 m ρ c
  rw [e2, e3, e11, col_read]
  rfl

theorem b6_arg0 : W6 m ρ c (Proc.devRef .tc main_arg0) = A0 m c := (W6_of_ne m ρ c main_arg0 (by decide)).trans (b5_arg0 m ρ c)
theorem b6_arg1 : W6 m ρ c (Proc.devRef .tc main_arg1) = A1 m c := (W6_of_ne m ρ c main_arg1 (by decide)).trans (b5_arg1 m ρ c)
theorem b6_arg4 : W6 m ρ c (Proc.devRef .tc main_arg4) = A4 m c := (W6_of_ne m ρ c main_arg4 (by decide)).trans (b5_arg4 m ρ c)
theorem b6_arg5 : W6 m ρ c (Proc.devRef .tc main_arg5) = A5 m c := (W6_of_ne m ρ c main_arg5 (by decide)).trans (b5_arg5 m ρ c)
theorem b6_arg6 : W6 m ρ c (Proc.devRef .tc main_arg6) = A6 m c := (W6_of_ne m ρ c main_arg6 (by decide)).trans (b5_arg6 m ρ c)
theorem b6_v9 : W6 m ρ c (Proc.devRef .tc main_v9) = Cert.ReferenceIdeal.Read.val_main_v9 (F := Ideal) (A0 m c) := (W6_of_ne m ρ c main_v9 (by decide)).trans (b5_v9 m ρ c)
theorem b6_v10 : W6 m ρ c (Proc.devRef .tc main_v10) = Cert.ReferenceIdeal.Read.val_main_v10 (F := Ideal) (A1 m c) := (W6_of_ne m ρ c main_v10 (by decide)).trans (b5_v10 m ρ c)

/-! ## Before the second stage (boundary 7) -/

theorem b7_v22 : W7 m ρ c (Proc.devRef .tc main_v22) = G1 m c := by
  refine (HostMid.v22 (W6 m ρ c)).trans ?_
  rw [b6_arg0, b6_arg1, b6_v12]
  rfl
theorem b7_v23 : W7 m ρ c (Proc.devRef .tc main_v23)
    = shapeCast S50000x1 (Cert.ReferenceIdeal.Read.val_main_v10 (F := Ideal) (A1 m c)) shapeCasts_S50000_S50000x1 := by
  refine (HostMid.v23 (W6 m ρ c)).trans ?_
  rw [b6_v10]
theorem b7_v24 : W7 m ρ c (Proc.devRef .tc main_v24)
    = shapeCast S50000x1 (Cert.ReferenceIdeal.Read.val_main_v9 (F := Ideal) (A0 m c)) shapeCasts_S50000_S50000x1 := by
  refine (HostMid.v24 (W6 m ρ c)).trans ?_
  rw [b6_v9]
theorem b7_v25 : W7 m ρ c (Proc.devRef .tc main_v25) = shapeCast S1x128 (A4 m c) shapeCasts_S128_S1x128 := by
  refine (HostMid.v25 (W6 m ρ c)).trans ?_
  rw [b6_arg4]
theorem b7_arg5 : W7 m ρ c (Proc.devRef .tc main_arg5) = A5 m c := (HostMid.keep1_arg5 (W6 m ρ c)).trans (b6_arg5 m ρ c)
theorem b7_arg0 : W7 m ρ c (Proc.devRef .tc main_arg0) = A0 m c := (HostMid.keep1_arg0 (W6 m ρ c)).trans (b6_arg0 m ρ c)
theorem b7_arg1 : W7 m ρ c (Proc.devRef .tc main_arg1) = A1 m c := (HostMid.keep1_arg1 (W6 m ρ c)).trans (b6_arg1 m ρ c)
theorem b7_arg6 : W7 m ρ c (Proc.devRef .tc main_arg6) = A6 m c := (HostMid.keep1_arg6 (W6 m ρ c)).trans (b6_arg6 m ρ c)
theorem b7_v10 : W7 m ρ c (Proc.devRef .tc main_v10) = Cert.ReferenceIdeal.Read.val_main_v10 (F := Ideal) (A1 m c) :=
  (HostMid.keep1_v10 (W6 m ρ c)).trans (b6_v10 m ρ c)

/-! ## After the second stage (boundary 8) -/

theorem b8_v26 : W8 m ρ c (Proc.devRef .tc main_v26) = H2 m c := by
  refine (W8_arr m ρ c 5).trans ?_
  rw [Layer2.arr_eq]
  unfold Layer2.result H2
  have e22 : V7 m ρ c main_v22 = G1 m c := b7_v22 m ρ c
  have e23 : V7 m ρ c main_v23 = shapeCast S50000x1 (Cert.ReferenceIdeal.Read.val_main_v10 (F := Ideal) (A1 m c)) shapeCasts_S50000_S50000x1 := b7_v23 m ρ c
  have e24 : V7 m ρ c main_v24 = shapeCast S50000x1 (Cert.ReferenceIdeal.Read.val_main_v9 (F := Ideal) (A0 m c)) shapeCasts_S50000_S50000x1 := b7_v24 m ρ c
  have e25 : V7 m ρ c main_v25 = shapeCast S1x128 (A4 m c) shapeCasts_S128_S1x128 := b7_v25 m ρ c
  have e5 : V7 m ρ c main_arg5 = A5 m c := b7_arg5 m ρ c
  rw [e22, e23, e24, e25, e5, col_read, col_read, row_read128]
  rfl

theorem b8_arg0 : W8 m ρ c (Proc.devRef .tc main_arg0) = A0 m c := (W8_of_ne m ρ c main_arg0 (by decide)).trans (b7_arg0 m ρ c)
theorem b8_arg1 : W8 m ρ c (Proc.devRef .tc main_arg1) = A1 m c := (W8_of_ne m ρ c main_arg1 (by decide)).trans (b7_arg1 m ρ c)
theorem b8_arg6 : W8 m ρ c (Proc.devRef .tc main_arg6) = A6 m c := (W8_of_ne m ρ c main_arg6 (by decide)).trans (b7_arg6 m ρ c)
theorem b8_v10 : W8 m ρ c (Proc.devRef .tc main_v10) = Cert.ReferenceIdeal.Read.val_main_v10 (F := Ideal) (A1 m c) :=
  (W8_of_ne m ρ c main_v10 (by decide)).trans (b7_v10 m ρ c)

/-! ## Before the last stage (boundary 9) -/

theorem b9_v36 : W9 m ρ c (Proc.devRef .tc main_v36) = G2 m c := by
  refine (HostMid.v36 (W8 m ρ c)).trans ?_
  rw [b8_arg0, b8_arg1, b8_v26]
  rfl
theorem b9_v37 : W9 m ρ c (Proc.devRef .tc main_v37)
    = shapeCast S50000x1 (Cert.ReferenceIdeal.Read.val_main_v10 (F := Ideal) (A1 m c)) shapeCasts_S50000_S50000x1 := by
  refine (HostMid.v37 (W8 m ρ c)).trans ?_
  rw [b8_v10]
theorem b9_v38 : W9 m ρ c (Proc.devRef .tc main_v38) = shapeCast S1x64 (A6 m c) shapeCasts_S64_S1x64 := by
  refine (HostMid.v38 (W8 m ρ c)).trans ?_
  rw [b8_arg6]

/-! ## At the return (boundary 10) -/

theorem b10_v39 : W10 m ρ c (Proc.devRef .tc main_v39) = OUT m c := by
  refine (W10_arr m ρ c 3).trans ?_
  rw [Layer3.arr_eq]
  unfold Layer3.result OUT
  have e36 : V9 m ρ c main_v36 = G2 m c := b9_v36 m ρ c
  have e37 : V9 m ρ c main_v37 = shapeCast S50000x1 (Cert.ReferenceIdeal.Read.val_main_v10 (F := Ideal) (A1 m c)) shapeCasts_S50000_S50000x1 := b9_v37 m ρ c
  have e38 : V9 m ρ c main_v38 = shapeCast S1x64 (A6 m c) shapeCasts_S64_S1x64 := b9_v38 m ρ c
  rw [e36, e37, e38, col_read, row_read64]
  rfl

/-- The result buffer at the return holds the reference's result term of the launch arguments. -/
theorem result_eq : W10 m ρ c (Proc.devRef .tc main_v39)
    = Cert.ReferenceIdeal.Read.val_main_v51 (F := Ideal) (A0 m c) (A1 m c) (A2 m c) (A3 m c) (A4 m c) (A5 m c) (A6 m c) :=
  (b10_v39 m ρ c).trans (Cert.ReferenceIdeal.Layers.whole (A0 m c) (A1 m c) (A2 m c) (A3 m c) (A4 m c) (A5 m c) (A6 m c)).symm

end Cert.KernelIdeal.Whole

end
-- ==== Proof.lean ====
/-
  A two-layer graph convolution with symmetric degree normalisation, on 50000 nodes and 800000 edges: the device program
  (three dense stages on the accelerator, the gathers and scatter-adds between them on the host) against the plain
  reference, over the extended reals.

  Both programs compute, from the two edge lists, the per-node scales `s_out` and `s_in` (reciprocal square roots of the
  clipped out- and in-degrees) by the same host operations.  Then
      H1 = lin x s_out W1,      G1 = agg1 H1,
      H2 = lin (act G1 s_in b1) s_out W2,      G2 = agg2 H2,
      out = aff G2 s_in b2,
  where `lin` scales the rows and multiplies by the weights, `act` scales, adds the bias and cuts off the negative part,
  `aff` scales and adds the bias (Proof/Spec.lean), and `agg1`, `agg2` gather rows by source node and add them up by
  destination node.  The reference computes each of `lin`, `act`, `aff` by whole-array host operations
  (Proof/RefLayers.lean).  The device program computes each in ten blocks of 5000 rows, rounding the matrix operands to
  a narrower float format first — the identity on the extended reals — and the blocks tile the rows
  (Proof/Layer1.lean, Layer2.lean, Layer3.lean); between the stages it applies the very operations `agg1`, `agg2`
  (Proof/HostPre.lean, HostMid.lean, KernelValue.lean).  So the two results are one function of the arguments, entry by
  entry; no step uses more than the definitions, and in particular none needs the inputs to be finite.

  The frames: the two device programs' are the generated frame certificates; the reference's is its generated run with
  the result dropped.  The idealization rewrote no operation, so there is nothing to preserve.
-/
import proofs.«154052_j72232759984610_1_alg».proof.Defs
import proofs.«154052_j72232759984610_1_alg».proof.Proof.Gen.Kernel
import proofs.«154052_j72232759984610_1_alg».proof.Proof.Gen.Kernel.Skeleton
import proofs.«154052_j72232759984610_1_alg».proof.Proof.Gen.Kernel.Launch
import proofs.«154052_j72232759984610_1_alg».proof.Proof.Gen.Kernel.Points
import proofs.«154052_j72232759984610_1_alg».proof.Proof.Gen.Kernel.Frame
import proofs.«154052_j72232759984610_1_alg».proof.Proof.Gen.KernelIdeal
import proofs.«154052_j72232759984610_1_alg».proof.Proof.Gen.KernelIdeal.Skeleton
import proofs.«154052_j72232759984610_1_alg».proof.Proof.Gen.KernelIdeal.Launch
import proofs.«154052_j72232759984610_1_alg».proof.Proof.Gen.KernelIdeal.Points
import proofs.«154052_j72232759984610_1_alg».proof.Proof.Gen.KernelIdeal.Frame
import proofs.«154052_j72232759984610_1_alg».proof.Proof.Gen.ReferenceIdeal
import proofs.«154052_j72232759984610_1_alg».proof.Proof.Gen.Pre_finite_inputs
import proofs.«154052_j72232759984610_1_alg».proof.Proof.Gen.ReferenceIdeal.Run
import proofs.«154052_j72232759984610_1_alg».proof.Proof.Gen.ReferenceIdeal.Read
import proofs.«154052_j72232759984610_1_alg».proof.Proof.KernelRun
import proofs.«154052_j72232759984610_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level device program runs and leaves its arguments as launched. -/
theorem frame_kernel [Cert.Kernel.Facts] [Cert.Pre_finite_inputs.Facts] : Cert.frame_Kernel :=
  fun m ρ _ => Cert.Kernel.Gen.frame m ρ

/-- The idealized device program runs and leaves its arguments as launched. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Run from memories that agree on the arguments, the two idealized programs end with the same result array: the device
    program's is the last boundary's contents of its result buffer, which is the reference's result term of the
    arguments (`Cert.KernelIdeal.Whole.result_eq`). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v51_eq, e0, e1, e2, e3, e4, e5, e6]
  exact (Cert.KernelIdeal.Whole.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
